-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S256x256x4 : Shape := ⟨3, ![256, 256, 4]⟩
abbrev S256x256 : Shape := ⟨2, ![256, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S256x256x4 : S_.BroadcastsInDim S256x256x4 (![] : Fin 0 → Fin S256x256x4.rank)
  reducesTo_S256x256x4_S_d0_1_2 : S256x256x4.ReducesTo [0, 1, 2] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S2048x256 .f32) (main_arg1 : FVec F S256x256x4 .f32) (main_arg2 : FVec F S256x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S256x256x4 .f32 := Host.absf main_arg1
  let main_cst_0 : FVec F S_ .f32 := constant S_ .f32 0x7F800000#32
  let main_v5 : FVec F S256x256x4 .f32 := broadcastInDim S256x256x4 ![] bcast_S_S256x256x4 main_cst_0
  let main_v6 : IVec S256x256x4 1 := cmpf .olt main_v4 main_v5
  let main_c_1 : IVec S_ 1 := constantI S_ 1 1#1
  let main_v7 : IVec S_ 1 := (fun x v => Host.reduce IntOp.andi x v reducesTo_S256x256x4_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S2048x256 : Shape := ⟨2, ![2048, 256]⟩
abbrev S256x256x4 : Shape := ⟨3, ![256, 256, 4]⟩
abbrev S256x256 : Shape := ⟨2, ![256, 256]⟩
abbrev S256x256x1 : Shape := ⟨3, ![256, 256, 1]⟩
abbrev S2048x256x256 : Shape := ⟨3, ![2048, 256, 256]⟩
abbrev S32x256 : Shape := ⟨2, ![32, 256]⟩
abbrev S32x256x256 : Shape := ⟨3, ![32, 256, 256]⟩
abbrev S1x256x256 : Shape := ⟨3, ![1, 256, 256]⟩
abbrev S32x1x256 : Shape := ⟨3, ![32, 1, 256]⟩

abbrev nBuf : Space → Nat
  | .hbm => 18
  | .vmem => 8
  | .smem => 0
  | _ => 0

abbrev bufTy : (tb : Table) → Fin (tcTables nBuf tb) → BufTy
  | .hbm, ⟨0, _⟩ => ⟨S2048x256, .f32⟩
  | .hbm, ⟨1, _⟩ => ⟨S256x256x4, .f32⟩
  | .hbm, ⟨2, _⟩ => ⟨S256x256, .f32⟩
  | .hbm, ⟨3, _⟩ => ⟨S256x256x1, .f32⟩
  | .hbm, ⟨4, _⟩ => ⟨S256x256, .f32⟩
  | .hbm, ⟨5, _⟩ => ⟨S256x256x1, .f32⟩
  | .hbm, ⟨6, _⟩ => ⟨S256x256, .f32⟩
  | .hbm, ⟨7, _⟩ => ⟨S256x256x1, .f32⟩
  | .hbm, ⟨8, _⟩ => ⟨S256x256, .f32⟩
  | .hbm, ⟨9, _⟩ => ⟨S256x256x1, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S2048x256, .f32⟩
  | .hbm, ⟨17, _⟩ => ⟨S2048x256x256, .f32⟩
  | .local _ .vmem, ⟨0, _⟩ => ⟨S32x256, .f32⟩
  | .local _ .vmem, ⟨1, _⟩ => ⟨S32x256, .f32⟩
  | .local _ .vmem, ⟨2, _⟩ => ⟨S256x256, .f32⟩
  | .local _ .vmem, ⟨3, _⟩ => ⟨S256x256, .f32⟩
  | .local _ .vmem, ⟨4, _⟩ => ⟨S32x256, .f32⟩
  | .local _ .vmem, ⟨5, _⟩ => ⟨S32x256, .f32⟩
  | .local _ .vmem, ⟨6, _⟩ => ⟨S32x256x256, .f32⟩
  | .local _ .vmem, ⟨7, _⟩ => ⟨S32x256x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13_0 : Ref sig .tc := ⟨.hbm, 16, rfl⟩
abbrev main_v13_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S256x256x4_S256x256x1_0_0_0 : S256x256x4.Slices ![0, 0, 0] S256x256x1
  shapeCasts_S256x256x1_S256x256 : S256x256x1.ShapeCasts S256x256
  slices_S256x256x4_S256x256x1_0_0_1 : S256x256x4.Slices ![0, 0, 1] S256x256x1
  slices_S256x256x4_S256x256x1_0_0_2 : S256x256x4.Slices ![0, 0, 2] S256x256x1
  slices_S256x256x4_S256x256x1_0_0_3 : S256x256x4.Slices ![0, 0, 3] S256x256x1
  inb_S32x256_S32x256_0_0 : ∀ a, (![0, 0] : Fin 2 → Nat) a + S32x256.size a ≤ S32x256.size a
  h_S32x256 : 0 < S32x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256x256_S1x256x256 : S256x256.ShapeCasts S1x256x256
  shapeCasts_S32x256_S32x1x256 : S32x256.ShapeCasts S32x1x256
  broadcasts_S1x256x256_S32x256x256 : S1x256x256.Broadcasts S32x256x256
  broadcasts_S32x1x256_S32x256x256 : S32x1x256.Broadcasts S32x256x256
  inb_S32x256x256_S32x256x256_0_0_0 : ∀ a, (![0, 0, 0] : Fin 3 → Nat) a + S32x256x256.size a ≤ S32x256x256.size a
  h_S32x256x256 : 0 < S32x256x256.numel
  reduces_S32x256x256_S32x256 : S32x256x256.Reduces [2] S32x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S2048x256.size a
  hwx0_0 : ∀ i : grid0.Coords, EltTy.bits .f32 = 32 ∨ (Rect.block (s := S2048x256) S32x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S2048x256.size a
  hwx0_3 : ∀ i : grid0.Coords, EltTy.bits .f32 = 32 ∨ (Rect.block (s := S2048x256) S32x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x256x256.size a ≤ S2048x256x256.size a
  hwx0_4 : ∀ i : grid0.Coords, EltTy.bits .f32 = 32 ∨ (Rect.block (s := S2048x256x256) S32x256x256.size (cc0_transform_4 i) (hinb0_4 i)).WholeWords (EltTy.packing .f32)

variable [Facts₀]

abbrev win0_0 : Pipeline.Window sig grid0 :=
  Pipeline.Window.ofSpec (Memref.whole main_arg0) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13_0) S32x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_1) S32x256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x256 : Shape := ⟨2, ![2048, 256]⟩
abbrev S256x256x4 : Shape := ⟨3, ![256, 256, 4]⟩
abbrev S256x256 : Shape := ⟨2, ![256, 256]⟩
abbrev S256x256x1 : Shape := ⟨3, ![256, 256, 1]⟩
abbrev S1x256x256 : Shape := ⟨3, ![1, 256, 256]⟩
abbrev S2048x1x256 : Shape := ⟨3, ![2048, 1, 256]⟩
abbrev S2048x256x256 : Shape := ⟨3, ![2048, 256, 256]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x256x4, .f32⟩
  | .hbm, ⟨2, _⟩ => ⟨S256x256, .f32⟩
  | .hbm, ⟨3, _⟩ => ⟨S256x256x1, .f32⟩
  | .hbm, ⟨4, _⟩ => ⟨S256x256, .f32⟩
  | .hbm, ⟨5, _⟩ => ⟨S256x256x1, .f32⟩
  | .hbm, ⟨6, _⟩ => ⟨S256x256, .f32⟩
  | .hbm, ⟨7, _⟩ => ⟨S256x256x1, .f32⟩
  | .hbm, ⟨8, _⟩ => ⟨S256x256, .f32⟩
  | .hbm, ⟨9, _⟩ => ⟨S256x256x1, .f32⟩
  | .hbm, ⟨10, _⟩ => ⟨S256x256, .f32⟩
  | .hbm, ⟨11, _⟩ => ⟨S1x256x256, .f32⟩
  | .hbm, ⟨12, _⟩ => ⟨S1x256x256, .f32⟩
  | .hbm, ⟨13, _⟩ => ⟨S1x256x256, .f32⟩
  | .hbm, ⟨14, _⟩ => ⟨S2048x1x256, .f32⟩
  | .hbm, ⟨15, _⟩ => ⟨S2048x256x256, .f32⟩
  | .hbm, ⟨16, _⟩ => ⟨S2048x256x256, .f32⟩
  | .hbm, ⟨17, _⟩ => ⟨S2048x256x256, .f32⟩
  | .hbm, ⟨18, _⟩ => ⟨S1x256x256, .f32⟩
  | .hbm, ⟨19, _⟩ => ⟨S2048x256x256, .f32⟩
  | .hbm, ⟨20, _⟩ => ⟨S2048x256x256, .f32⟩
  | .hbm, ⟨21, _⟩ => ⟨S2048x256x256, .f32⟩
  | .hbm, ⟨22, _⟩ => ⟨S2048x256x256, .f32⟩
  | .hbm, ⟨23, _⟩ => ⟨S1x256x256, .f32⟩
  | .hbm, ⟨24, _⟩ => ⟨S2048x256x256, .f32⟩
  | .hbm, ⟨25, _⟩ => ⟨S2048x256x256, .f32⟩
  | .hbm, ⟨26, _⟩ => ⟨S2048x256x256, .f32⟩
  | .hbm, ⟨27, _⟩ => ⟨S2048x256x256, .f32⟩
  | .hbm, ⟨28, _⟩ => ⟨S_, .f32⟩
  | .hbm, ⟨29, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst : Ref sig .tc := ⟨.hbm, 28, rfl⟩
abbrev main_v25 : Ref sig .tc := ⟨.hbm, 29, rfl⟩

abbrev nD : Nat := 1
abbrev τ : Topo := Topo.v7x

variable {F : FTy → Type} [FloatOps F]

class Facts₀ : Prop where
  slices_S256x256x4_S256x256x1_0_0_0 : S256x256x4.Slices ![0, 0, 0] S256x256x1
  shapeCasts_S256x256x1_S256x256 : S256x256x1.ShapeCasts S256x256
  slices_S256x256x4_S256x256x1_0_0_1 : S256x256x4.Slices ![0, 0, 1] S256x256x1
  slices_S256x256x4_S256x256x1_0_0_2 : S256x256x4.Slices ![0, 0, 2] S256x256x1
  slices_S256x256x4_S256x256x1_0_0_3 : S256x256x4.Slices ![0, 0, 3] S256x256x1
  bcast_S256x256_S1x256x256_1_2 : S256x256.BroadcastsInDim S1x256x256 (![1, 2] : Fin 2 → Fin S1x256x256.rank)
  bcast_S2048x256_S2048x1x256_0_2 : S2048x256.BroadcastsInDim S2048x1x256 (![0, 2] : Fin 2 → Fin S2048x1x256.rank)
  bcast_S1x256x256_S2048x256x256_0_1_2 : S1x256x256.BroadcastsInDim S2048x256x256 (![0, 1, 2] : Fin 3 → Fin S2048x256x256.rank)
  bcast_S2048x1x256_S2048x256x256_0_1_2 : S2048x1x256.BroadcastsInDim S2048x256x256 (![0, 1, 2] : Fin 3 → Fin S2048x256x256.rank)
  reducesTo_S2048x256x256_S2048x256_d2 : S2048x256x256.ReducesTo [2] S2048x256
  h_S_ : 0 < S_.numel

variable [Facts₀]

class Facts : Prop extends Facts₀ where

variable [Facts]
-- ==== Proof.Spec.lean ====
/-
  The layer's two results as functions of the argument arrays, on the extended reals.

  One edge (b, o, i) carries  mask(o,i) · (a2(o,i) · (a0(o,i) · x(b,i) + a1(o,i)) + a3(o,i)),  where a0 … a3 are the four
  lanes of the coefficient array at (o, i); the first result sums the edges of (b, o) over i, the second is the array of
  edges itself. A layer that folds the coefficients once,  A = (mask · a2) · a0  and  C = mask · (a2 · a1 + a3),  and then
  forms  A · x + C  per edge, computes the same edge whenever every entry is a real number: that is distributivity of the
  product over the sum, which the extended reals have at real entries (and lose at the infinities).
-/
import Idealize.ShloMosaic.PureOps.Ideal
import Idealize.ShloMosaic.Lib.ValueIdx

noncomputable section

namespace KanLayer

open Idealize.ShloMosaic Idealize.ShloMosaic.ValueIdx

/-- One edge of the layer: the coefficients applied to the input in the order mask · (a2 · (a0 · x + a1) + a3). -/
def edge (mk a0 a1 a2 a3 x : EReal) : EReal := mk * (a2 * (a0 * x + a1) + a3)

/-- The folded slope (mask · a2) · a0 and the folded offset mask · (a2 · a1 + a3). -/
def slope (mk a0 a2 : EReal) : EReal := mk * a2 * a0
def offset (mk a1 a2 a3 : EReal) : EReal := mk * (a2 * a1 + a3)

/-- At real entries the folded form slope · x + offset is the edge: distributivity over the reals. -/
theorem fold_eq (mk a0 a1 a2 a3 x : ℝ) :
    slope (mk : EReal) a0 a2 * (x : EReal) + offset (mk : EReal) a1 a2 a3 = edge mk a0 a1 a2 a3 x := by
  unfold slope offset edge
  simp only [← EReal.coe_mul, ← EReal.coe_add]
  congr 1
  ring

/-- The same law for extended reals known to be real. -/
theorem fold_eq_of_real {mk a0 a1 a2 a3 x : EReal} (hmk : ∃ r : ℝ, mk = r) (h0 : ∃ r : ℝ, a0 = r) (h1 : ∃ r : ℝ, a1 = r)
    (h2 : ∃ r : ℝ, a2 = r) (h3 : ∃ r : ℝ, a3 = r) (hx : ∃ r : ℝ, x = r) :
    slope mk a0 a2 * x + offset mk a1 a2 a3 = edge mk a0 a1 a2 a3 x := by
  obtain ⟨_, rfl⟩ := hmk; obtain ⟨_, rfl⟩ := h0; obtain ⟨_, rfl⟩ := h1
  obtain ⟨_, rfl⟩ := h2; obtain ⟨_, rfl⟩ := h3; obtain ⟨_, rfl⟩ := hx
  exact fold_eq _ _ _ _ _ _

/-- The arrays' shapes: the input [2048, 256], the coefficients [256, 256, 4], the mask [256, 256]; the edges
    [2048, 256, 256] and their sums [2048, 256]. -/
abbrev SIn : Shape := ⟨2, ![2048, 256]⟩
abbrev SCoef : Shape := ⟨3, ![256, 256, 4]⟩
abbrev SMask : Shape := ⟨2, ![256, 256]⟩
abbrev SEdges : Shape := ⟨3, ![2048, 256, 256]⟩
abbrev SOut : Shape := ⟨2, ![2048, 256]⟩

/-- The edge (b, o, i) of the argument arrays. -/
def edgeAt (x : SIn.Idx → EReal) (cf : SCoef.Idx → EReal) (mk : SMask.Idx → EReal) (b : Fin 2048) (o i : Fin 256) : EReal :=
  edge (mk (ix2 o i)) (cf (ix3 o i (0 : Fin 4))) (cf (ix3 o i (1 : Fin 4))) (cf (ix3 o i (2 : Fin 4))) (cf (ix3 o i (3 : Fin 4)))
    (x (ix2 b i))

/-- The folded coefficients at (o, i). -/
def slopeAt (cf : SCoef.Idx → EReal) (mk : SMask.Idx → EReal) (o i : Fin 256) : EReal :=
  slope (mk (ix2 o i)) (cf (ix3 o i (0 : Fin 4))) (cf (ix3 o i (2 : Fin 4)))
def offsetAt (cf : SCoef.Idx → EReal) (mk : SMask.Idx → EReal) (o i : Fin 256) : EReal :=
  offset (mk (ix2 o i)) (cf (ix3 o i (1 : Fin 4))) (cf (ix3 o i (2 : Fin 4))) (cf (ix3 o i (3 : Fin 4)))

/-- Every entry of the three argument arrays is a real number. -/
def AllReal (x : SIn.Idx → EReal) (cf : SCoef.Idx → EReal) (mk : SMask.Idx → EReal) : Prop :=
  (∀ j, ∃ r : ℝ, x j = r) ∧ (∀ j, ∃ r : ℝ, cf j = r) ∧ (∀ j, ∃ r : ℝ, mk j = r)

/-- With real entries, the folded coefficients applied to the input give the edge. -/
theorem folded_edge {x : SIn.Idx → EReal} {cf : SCoef.Idx → EReal} {mk : SMask.Idx → EReal} (h : AllReal x cf mk)
    (b : Fin 2048) (o i : Fin 256) :
    slopeAt cf mk o i * x (ix2 b i) + offsetAt cf mk o i = edgeAt x cf mk b o i :=
  fold_eq_of_real (h.2.2 _) (h.2.1 _) (h.2.1 _) (h.2.1 _) (h.2.1 _) (h.1 _)

/-- The second result: the array of edges. -/
def edges (x : SIn.Idx → EReal) (cf : SCoef.Idx → EReal) (mk : SMask.Idx → EReal) : SEdges.Idx → EReal :=
  fun j => edgeAt x cf mk (j 0) (j 1) (j 2)

/-- The first result: at (b, o) the sum of the edges over i. -/
def sums (x : SIn.Idx → EReal) (cf : SCoef.Idx → EReal) (mk : SMask.Idx → EReal) : SOut.Idx → EReal :=
  fun j => ∑ i : Fin 256, edgeAt x cf mk (j 0) (j 1) i

theorem edges_ix3 (x : SIn.Idx → EReal) (cf : SCoef.Idx → EReal) (mk : SMask.Idx → EReal) (b : Fin 2048) (o i : Fin 256) :
    edges x cf mk (ix3 b o i) = edgeAt x cf mk b o i := rfl

theorem sums_ix2 (x : SIn.Idx → EReal) (cf : SCoef.Idx → EReal) (mk : SMask.Idx → EReal) (b : Fin 2048) (o : Fin 256) :
    sums x cf mk (ix2 b o) = ∑ i : Fin 256, edgeAt x cf mk b o i := rfl

end KanLayer

end
-- ==== Proof.Finite.lean ====
/-
  The precondition says every entry of the three argument arrays is a real number.

  The printed test is the conjunction of three `all`-reductions, one per array, of the elementwise comparison
  |v| < +∞ (the word 0x7F800000 is +∞). A conjunction of bits is 1 only if each is; a reduction by `and` over every
  axis is 1 only if every element is; and an extended real whose absolute value max(v, −v) lies strictly below +∞ is
  neither +∞ nor −∞, hence a real.
-/
import proofs.«156581_j90555090469173_2_alg».proof.Pre_finite_inputs
import proofs.«156581_j90555090469173_2_alg».proof.Proof.Spec
import Idealize.ShloMosaic.Lib.ReduceAll
import Idealize.ShloMosaic.PureOps.Ideal.Laws

noncomputable section

namespace Cert.Proof.Finite

open Idealize.ShloMosaic Idealize.ShloMosaic.ValueIdx

/-- The result of a reduction over every axis has one index. -/
instance : Subsingleton Cert.Pre_finite_inputs.S_.Idx := ⟨fun a b => funext fun d => d.elim0⟩

/-- An extended real whose absolute value is strictly below +∞ is a real number. -/
theorem real_of_abs_lt (v : EReal)
    (h : Ideal.cmp .olt (max v (-v)) (Ideal.ofBits .f32 0x7F800000#32) = 1#1) : ∃ r : ℝ, v = r := by
  have htop : Ideal.ofBits .f32 0x7F800000#32 = (⊤ : EReal) := by simp [Ideal.ofBits, Ideal.ieee]
  rw [htop] at h
  induction v using EReal.rec with
  | bot => exact absurd h (by simp [Ideal.cmp])
  | coe r => exact ⟨r, rfl⟩
  | top => exact absurd h (by simp [Ideal.cmp])

/-- Under the finiteness test every entry of the three arrays is real. -/
theorem allReal [Cert.Pre_finite_inputs.Facts] (x : KanLayer.SIn.Idx → EReal) (cf : KanLayer.SCoef.Idx → EReal)
    (mk : KanLayer.SMask.Idx → EReal)
    (h : Cert.Pre_finite_inputs.fn (F := Ideal) x cf mk = fun _ => 1#1) : KanLayer.AllReal x cf mk := by
  have h0 := congrFun h ix0
  dsimp only [Cert.Pre_finite_inputs.fn] at h0
  obtain ⟨h01, hmk⟩ := IntOp.andi_eq_one.1 h0
  obtain ⟨hx, hcf⟩ := IntOp.andi_eq_one.1 h01
  exact ⟨fun j => real_of_abs_lt _ (Host.reduce_andi_all _ _ _ _ ix0 hx j),
    fun j => real_of_abs_lt _ (Host.reduce_andi_all _ _ _ _ ix0 hcf j),
    fun j => real_of_abs_lt _ (Host.reduce_andi_all _ _ _ _ ix0 hmk j)⟩

end Cert.Proof.Finite

end
-- ==== Proof.RefSpec.lean ====
/-
  The reference's two results are the layer's: its array of edges is `KanLayer.edges` and its sums `KanLayer.sums`.

  The reference cuts lane k of the coefficient array as a [256, 256, 1] column block and views it as a [256, 256] matrix:
  entry (o, i) of that matrix is the coefficient (o, i, k), because the unit axis adds nothing to a row-major position.
  Each matrix is then laid along a new leading axis and spread over the batch, the input along a new middle axis and
  spread over the outputs, so the element (b, o, i) of every spread array is the entry (o, i), resp. (b, i), of its source.
  The sum over the last axis starts from the zero word, which is the number 0.
-/
import proofs.«156581_j90555090469173_2_alg».proof.Proof.Gen.ReferenceIdeal.Read
import proofs.«156581_j90555090469173_2_alg».proof.Proof.Spec

noncomputable section

namespace Cert.ReferenceIdeal.RefValue

open Cert.ReferenceIdeal Cert.ReferenceIdeal.Read Idealize.ShloMosaic Idealize.ShloMosaic.ValueIdx

/-- Entry (o, i) of lane 0 viewed as a matrix is the coefficient (o, i, 0). -/
theorem lane0 (o i : Fin 256) : idx_main_v0 (idx_main_v1 (ix2 o i)) = ix3 o i (0 : Fin 4) := by
  funext a; apply Fin.ext
  have ho := o.isLt; have hi := i.isLt
  match a with
  | ⟨0, _⟩ => show (o.val * 256 + i.val) / 256 = o.val; omega
  | ⟨1, _⟩ => show (o.val * 256 + i.val) / 1 % 256 = i.val; omega
  | ⟨2, _⟩ => rfl

/-- Entry (o, i) of lane 1 viewed as a matrix is the coefficient (o, i, 1). -/
theorem lane1 (o i : Fin 256) : idx_main_v2 (idx_main_v3 (ix2 o i)) = ix3 o i (1 : Fin 4) := by
  funext a; apply Fin.ext
  have ho := o.isLt; have hi := i.isLt
  match a with
  | ⟨0, _⟩ => show (o.val * 256 + i.val) / 256 = o.val; omega
  | ⟨1, _⟩ => show (o.val * 256 + i.val) / 1 % 256 = i.val; omega
  | ⟨2, _⟩ => rfl

/-- Entry (o, i) of lane 2 viewed as a matrix is the coefficient (o, i, 2). -/
theorem lane2 (o i : Fin 256) : idx_main_v4 (idx_main_v5 (ix2 o i)) = ix3 o i (2 : Fin 4) := by
  funext a; apply Fin.ext
  have ho := o.isLt; have hi := i.isLt
  match a with
  | ⟨0, _⟩ => show (o.val * 256 + i.val) / 256 = o.val; omega
  | ⟨1, _⟩ => show (o.val * 256 + i.val) / 1 % 256 = i.val; omega
  | ⟨2, _⟩ => rfl

/-- Entry (o, i) of lane 3 viewed as a matrix is the coefficient (o, i, 3). -/
theorem lane3 (o i : Fin 256) : idx_main_v6 (idx_main_v7 (ix2 o i)) = ix3 o i (3 : Fin 4) := by
  funext a; apply Fin.ext
  have ho := o.isLt; have hi := i.isLt
  match a with
  | ⟨0, _⟩ => show (o.val * 256 + i.val) / 256 = o.val; omega
  | ⟨1, _⟩ => show (o.val * 256 + i.val) / 1 % 256 = i.val; omega
  | ⟨2, _⟩ => rfl

/-- A matrix laid along a new leading axis and spread over the batch reads, at (b, o, i), its entry (o, i). -/
theorem spread_mat (b : Fin 2048) (o i : Fin 256) :
    idx_main_v8 (idx_main_v23 (ix3 b o i)) = ix2 o i ∧ idx_main_v9 (idx_main_v18 (ix3 b o i)) = ix2 o i
    ∧ idx_main_v10 (idx_main_v12 (ix3 b o i)) = ix2 o i ∧ idx_main_v15 (idx_main_v16 (ix3 b o i)) = ix2 o i
    ∧ idx_main_v20 (idx_main_v21 (ix3 b o i)) = ix2 o i := by
  refine ⟨?_, ?_, ?_, ?_, ?_⟩ <;> exact funext fun a => Fin.ext (by match a with | ⟨0, _⟩ => rfl | ⟨1, _⟩ => rfl)

/-- The input laid along a new middle axis and spread over the outputs reads, at (b, o, i), its entry (b, i). -/
theorem spread_in (b : Fin 2048) (o i : Fin 256) : idx_main_v11 (idx_main_v13 (ix3 b o i)) = ix2 b i :=
  funext fun a => Fin.ext (by match a with | ⟨0, _⟩ => rfl | ⟨1, _⟩ => rfl)

/-- The reference's second result is the array of edges. -/
theorem edges_eq (x : KanLayer.SIn.Idx → EReal) (cf : KanLayer.SCoef.Idx → EReal) (mk : KanLayer.SMask.Idx → EReal) :
    val_main_v24 (F := Ideal) x cf mk = KanLayer.edges x cf mk := by
  funext j
  obtain ⟨b, o, i, rfl⟩ : ∃ (b : Fin 2048) (o i : Fin 256), j = ix3 b o i := ⟨j 0, j 1, j 2, eq_ix3 j⟩
  obtain ⟨e8, e9, e10, e15, e20⟩ := spread_mat b o i
  rw [val_main_v24_apply, val_main_v23_apply, val_main_v8_apply, val_main_v22_apply, val_main_v19_apply, val_main_v18_apply,
    val_main_v9_apply, val_main_v5_apply, val_main_v4_apply, val_main_v17_apply, val_main_v14_apply, val_main_v12_apply,
    val_main_v10_apply, val_main_v1_apply, val_main_v0_apply, val_main_v13_apply, val_main_v11_apply, val_main_v16_apply,
    val_main_v15_apply, val_main_v3_apply, val_main_v2_apply, val_main_v21_apply, val_main_v20_apply, val_main_v7_apply,
    val_main_v6_apply, e8, e9, e10, e15, e20, spread_in b o i, lane0, lane1, lane2, lane3]
  rfl

/-- The reference's first result is the array of the edges' sums. -/
theorem sums_eq (x : KanLayer.SIn.Idx → EReal) (cf : KanLayer.SCoef.Idx → EReal) (mk : KanLayer.SMask.Idx → EReal) :
    val_main_v25 (F := Ideal) x cf mk = KanLayer.sums x cf mk := by
  funext j
  obtain ⟨b, o, rfl⟩ : ∃ (b : Fin 2048) (o : Fin 256), j = ix2 b o := ⟨j 0, j 1, eq_ix2 j⟩
  rw [val_main_v25_apply, edges_eq, val_main_cst_apply]
  show Ideal.ofBits .f32 0x00000000#32 + _ = _
  rw [Ideal.ofBits_zero_f32, zero_add, KanLayer.sums_ix2]
  refine Finset.sum_congr rfl fun k _ => ?_
  rw [← KanLayer.edges_ix3]
  exact congrArg _ (funext fun a => Fin.ext (by match a with | ⟨0, _⟩ => rfl | ⟨1, _⟩ => rfl | ⟨2, _⟩ => rfl))

end Cert.ReferenceIdeal.RefValue

end
-- ==== Proof.LibLayout3Col.lean ====
/-
  Rank-3 arrays whose last axis is a unit column, and reductions along the last axis, read at an index written by its
  coordinates, for any extents.

  A row quantity kept as a column ([a, b] viewed as [a, b, 1]) and spread along a new last axis ([a, b, 1] to [a, b, c])
  reads the same entry at every position of that axis; one lane of the last axis cut out as a column ([a, b, d] to
  [a, b, 1] at offset o) reads lane o; a column viewed as a matrix again ([a, b, 1] to [a, b]) reads its only lane.
  Row-major positions agree because the unit axis contributes a factor 1 and a coordinate 0.
  On the extended reals a sum along the last axis started at the zero word is the sum over that axis's coordinates, and
  a minimum along the last axis started at the word of plus infinity is the infimum over them.
-/
import Idealize.ShloMosaic.Lib.Pipeline.Value
import Idealize.ShloMosaic.Lib.ValueIdx
import Idealize.ShloMosaic.PureOps.Ideal.Laws

namespace Layout3Col

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) := by
  refine shapeCast_apply x h (ix3 i j u) (ix2 i j) ?_
  have hu : u.val = 0 := by omega
  rw [Shape.rowMajor_val_two, Shape.rowMajor_val_three]
  show i.val * b + j.val = (i.val * b + j.val) * 1 + u.val
  rw [hu, Nat.mul_one, Nat.add_zero]

/-- An `[a, b, 1]` array cast to `[a, b]` reads, at `(i, j)`, the operand's only lane at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) := by
  refine shapeCast_apply x h (ix2 i j) (ix3 i j (0 : Fin 1)) ?_
  rw [Shape.rowMajor_val_two, Shape.rowMajor_val_three]
  show (i.val * b + j.val) * 1 + 0 = i.val * b + j.val
  rw [Nat.mul_one, Nat.add_zero]

/-- An `[a, b, 1]` array broadcast to `[a, b, c]` reads, at `(i, j, k)`, the operand's only lane at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A unit-width slice of the last axis at offset `o` (offset zero on the other axes) reads, at `(i, j, u)`, lane `o`. -/
theorem slice_lane_apply {a b d : ℕ} (x : (⟨3, ![a, b, d]⟩ : Shape).Idx → α) (off : Fin 3 → ℕ)
    (h : (⟨3, ![a, b, d]⟩ : Shape).Slices off ⟨3, ![a, b, 1]⟩) (h0 : off 0 = 0) (h1 : off 1 = 0) (o : Fin d) (h2 : off 2 = o.val)
    (i : Fin a) (j : Fin b) (u : Fin 1) :
    extractStridedSlice ⟨3, ![a, b, 1]⟩ off x h (ix3 i j u) = x (ix3 i j o) := by
  refine extractStridedSlice_apply off x h (ix3 i j u) (ix3 i j o) fun ax => ?_
  match ax with
  | ⟨0, _⟩ => show i.val = off 0 + i.val; rw [h0, Nat.zero_add]
  | ⟨1, _⟩ => show j.val = off 1 + j.val; rw [h1, Nat.zero_add]
  | ⟨2, _⟩ => show o.val = off 2 + u.val; have := u.isLt; omega

/-- The index of an `[a, b, c]` array over `(i, j)` of the reduced `[a, b]` with lane `k` put back is `(i, j, k)`. -/
theorem lift_lane {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext ax; apply Fin.ext
  fin_cases ax <;> rfl

/-- On the extended reals the sum of an `[a, b, c]` array along its last axis is, at `(i, j)`, the sum over `k` of the
    entries `(i, j, k)`. -/
theorem laneSum_apply {a b c : ℕ} (src : FVec Ideal ⟨3, ![a, b, c]⟩ .f32)
    (h : (⟨3, ![a, b, c]⟩ : Shape).Reduces [2] (⟨2, ![a, b]⟩ : Shape)) (hφ : FKind.Formats .f32)
    (hacc : (0x00000000#32 : BitVec 32) = 0x00000000#32) (i : Fin a) (j : Fin b) :
    multiReduction (F := Ideal) .add [2] ⟨2, ![a, b]⟩ src 0x00000000#32 h hφ hacc (ix2 i j) = ∑ k : Fin c, src (ix3 i j k) := by
  refine (Ideal.multiReduction_add_single src 0x00000000#32 h hφ hacc (ix2 i j)).trans ?_
  exact Finset.sum_congr rfl fun k _ => congrArg src (lift_lane h i j k)

/-- A fold of the minimum from plus infinity over a finite set is the infimum over it. -/
theorem fold_minimumf_eq_inf {ι : Type} [DecidableEq ι] (s : Finset ι) (f : ι → EReal) :
    s.fold (FloatOps.minimumf (F := Ideal) (φ := .f32)) (⊤ : EReal) f = s.inf f := by
  induction s using Finset.induction_on with
  | empty => rw [Finset.fold_empty, Finset.inf_empty]
  | insert a s ha ih =>
    rw [Finset.fold_insert ha, Finset.inf_insert, ih]
    show min (f a) (s.inf f) = f a ⊓ s.inf f
    rfl

/-- On the extended reals the minimum of an `[a, b, c]` array along its last axis, started at plus infinity, is, at
    `(i, j)`, the infimum over `k` of the entries `(i, j, k)`. -/
theorem laneMin_apply {a b c : ℕ} (src : FVec Ideal ⟨3, ![a, b, c]⟩ .f32)
    (h : (⟨3, ![a, b, c]⟩ : Shape).Reduces [2] (⟨2, ![a, b]⟩ : Shape)) (hφ : FKind.Formats .f32)
    (hacc : (0x7F800000#32 : BitVec 32) = 0x7F800000#32) (i : Fin a) (j : Fin b) :
    multiReduction (F := Ideal) .minimumf [2] ⟨2, ![a, b]⟩ src 0x7F800000#32 h hφ hacc (ix2 i j)
      = Finset.univ.inf fun k : Fin c => src (ix3 i j k) := by
  refine (multiReduction_minimumf_eq_fold src 0x7F800000#32 h hφ hacc (ix2 i j)).trans ?_
  refine (h.fold_filter_drop_single _ _ src (ix2 i j)).trans ?_
  have htop : (FloatOps.ofBits (F := Ideal) .f32 0x7F800000#32 : EReal) = ⊤ := by simp [Ideal.ofBits, Ideal.ieee]
  rw [htop]
  refine (fold_minimumf_eq_inf _ _).trans ?_
  exact Finset.inf_congr rfl fun k _ => congrArg src (lift_lane h i j k)

end Layout3Col
-- ==== Proof.KernelCoef.lean ====
/-
  The folded coefficients the kernel's region is launched with.

  Before the region the host cuts the four lanes of the coefficient array, each viewed as a [256, 256] matrix, and forms
  the slope (mask · lane2) · lane0 and the offset mask · (lane2 · lane1 + lane3) elementwise. Entry (o, i) of lane k's
  matrix is the coefficient (o, i, k), so at (o, i) the two arrays the region finds are `KanLayer.slopeAt` and
  `KanLayer.offsetAt` of the argument arrays.
-/
import proofs.«156581_j90555090469173_2_alg».proof.Proof.Gen.KernelIdeal.Frame
import proofs.«156581_j90555090469173_2_alg».proof.Proof.Spec
import proofs.«156581_j90555090469173_2_alg».proof.Proof.LibLayout3Col
import Idealize.ShloMosaic.Lib.StableHlo.Run
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The three argument arrays as launched, on device `c`. -/
abbrev argIn (c : Dev nD) : KanLayer.SIn.Idx → EReal := m ((c : Thread nD τ).loc main_arg0)
abbrev argCoef (c : Dev nD) : KanLayer.SCoef.Idx → EReal := m ((c : Thread nD τ).loc main_arg1)
abbrev argMask (c : Dev nD) : KanLayer.SMask.Idx → EReal := m ((c : Thread nD τ).loc main_arg2)

/-- Lane `k` of the coefficient array, cut as a column block and viewed as a matrix, reads at (o, i) the coefficient (o, i, k). -/
theorem lane_apply (cf : S256x256x4.Idx → EReal) (off : Fin 3 → ℕ) (h : S256x256x4.Slices off S256x256x1)
    (h' : S256x256x1.ShapeCasts S256x256) (h0 : off 0 = 0) (h1 : off 1 = 0) (k : Fin 4) (h2 : off 2 = k.val) (o i : Fin 256) :
    shapeCast S256x256 (extractStridedSlice S256x256x1 off cf h) h' (ix2 o i) = cf (ix3 o i k) :=
  (Layout3Col.shapeCast_ab1_ab_apply _ h' o i).trans (Layout3Col.slice_lane_apply cf off h h0 h1 k h2 o i 0)

/-- The array window 1 stages is the slope (mask · lane2) · lane0 of the arguments. -/
theorem slope_found (c : Dev nD) (o i : Fin 256) :
    (V m c main_v9 : S256x256.Idx → EReal) (ix2 o i) = KanLayer.slopeAt (argCoef m c) (argMask m c) o i := by
  have e : @Eq (S256x256.Idx → EReal) (V m c main_v9)
      (mulf (F := Ideal) (φ := .f32) (mulf (F := Ideal) (φ := .f32) (argMask m c) (shapeCast S256x256 (extractStridedSlice S256x256x1 ![0, 0, 2] (argCoef m c)
            slices_S256x256x4_S256x256x1_0_0_2) shapeCasts_S256x256x1_S256x256))
          (shapeCast S256x256 (extractStridedSlice S256x256x1 ![0, 0, 0] (argCoef m c)
            slices_S256x256x4_S256x256x1_0_0_0) shapeCasts_S256x256x1_S256x256)) := by
    dsimp only [Gen.V, Gen.hostOps0]; after_results; rfl
  rw [e, mulf_apply, mulf_apply, lane_apply _ _ _ _ rfl rfl (2 : Fin 4) rfl o i, lane_apply _ _ _ _ rfl rfl (0 : Fin 4) rfl o i]
  rfl

/-- The array window 2 stages is the offset mask · (lane2 · lane1 + lane3) of the arguments. -/
theorem offset_found (c : Dev nD) (o i : Fin 256) :
    (V m c main_v12 : S256x256.Idx → EReal) (ix2 o i) = KanLayer.offsetAt (argCoef m c) (argMask m c) o i := by
  have e : @Eq (S256x256.Idx → EReal) (V m c main_v12)
      (mulf (F := Ideal) (φ := .f32) (argMask m c) (addf (F := Ideal) (φ := .f32) (mulf (F := Ideal) (φ := .f32)
          (shapeCast S256x256 (extractStridedSlice S256x256x1 ![0, 0, 2] (argCoef m c)
            slices_S256x256x4_S256x256x1_0_0_2) shapeCasts_S256x256x1_S256x256)
          (shapeCast S256x256 (extractStridedSlice S256x256x1 ![0, 0, 1] (argCoef m c)
            slices_S256x256x4_S256x256x1_0_0_1) shapeCasts_S256x256x1_S256x256))
          (shapeCast S256x256 (extractStridedSlice S256x256x1 ![0, 0, 3] (argCoef m c)
            slices_S256x256x4_S256x256x1_0_0_3) shapeCasts_S256x256x1_S256x256))) := by
    dsimp only [Gen.V, Gen.hostOps0]; after_results; rfl
  rw [e, mulf_apply, addf_apply, mulf_apply, lane_apply _ _ _ _ rfl rfl (2 : Fin 4) rfl o i,
    lane_apply _ _ _ _ rfl rfl (1 : Fin 4) rfl o i, lane_apply _ _ _ _ rfl rfl (3 : Fin 4) rfl o i]
  rfl

end Cert.KernelIdeal.Hand

end
-- ==== Proof.KernelBody.lean ====
/-
  What the kernel's body leaves in its two output buffers, read at an index.

  The body loads a block of 32 input rows and the two coefficient matrices, spreads the matrices over the rows and the
  rows over the 256 outputs, and forms slope · x + offset: at (b, o, i) that is slope(o, i) · x(b, i) + offset(o, i).
  It stores this rank-3 block whole, and stores its sum along the last axis, which on the extended reals is, at (b, o),
  the sum over i of those entries (the reduction starts from the zero word, the sum's neutral element).
-/
import proofs.«156581_j90555090469173_2_alg».proof.Proof.Gen.KernelIdeal.Value
import proofs.«156581_j90555090469173_2_alg».proof.Proof.LibLayout3Col
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx

theorem zero2 : (![0, 0] : Fin 2 → Nat) = fun _ => 0 := funext fun a => by fin_cases a <;> rfl
theorem zero3 : (![0, 0, 0] : Fin 3 → Nat) = fun _ => 0 := funext fun a => by fin_cases a <;> rfl

/-- The stored rank-3 value at (b, o, i): slope(o, i) · x(b, i) + offset(o, i). -/
theorem pay_edges_apply (xb : Vec Ideal S32x256 .f32) (sl os : Vec Ideal S256x256 .f32) (b : Fin 32) (o i : Fin 256) :
    k0_pay1 xb sl os (ix3 b o i) = sl (ix2 o i) * xb (ix2 b i) + os (ix2 o i) := by
  refine (Value.piece4_0 sl xb os (ix3 b o i)).trans ?_
  have e0 : Value.ix4_0 (r0_2.idx (ix3 b o i)) = ix2 o i := funext fun a => Fin.ext (by
    match a with
    | ⟨0, _⟩ => show 0 + 1 * o.val = o.val; omega
    | ⟨1, _⟩ => show 0 + 1 * i.val = i.val; omega)
  have e1 : Value.ix4_1 (r0_2.idx (ix3 b o i)) = ix2 b i := funext fun a => Fin.ext (by
    match a with
    | ⟨0, _⟩ => show 0 + 1 * b.val = b.val; omega
    | ⟨1, _⟩ => show 0 + 1 * i.val = i.val; omega)
  have e2 : Value.ix4_2 (r0_2.idx (ix3 b o i)) = ix2 o i := funext fun a => Fin.ext (by
    match a with
    | ⟨0, _⟩ => show 0 + 1 * o.val = o.val; omega
    | ⟨1, _⟩ => show 0 + 1 * i.val = i.val; omega)
  show sl (Value.ix4_0 (r0_2.idx (ix3 b o i))) * xb (Value.ix4_1 (r0_2.idx (ix3 b o i)))
      + os (Value.ix4_2 (r0_2.idx (ix3 b o i))) = _
  rw [e0, e1, e2]

/-- The stored sums at (b, o): the sum over i of slope(o, i) · x(b, i) + offset(o, i). -/
theorem pay_sums_apply (xb : Vec Ideal S32x256 .f32) (sl os : Vec Ideal S256x256 .f32) (b : Fin 32) (o : Fin 256) :
    k0_pay2 xb sl os (ix2 b o) = ∑ i : Fin 256, (sl (ix2 o i) * xb (ix2 b i) + os (ix2 o i)) := by
  unfold k0_pay2
  refine (Layout3Col.laneSum_apply (k0_pay1 xb sl os) _ _ _ b o).trans ?_
  exact Finset.sum_congr rfl fun i _ => pay_edges_apply xb sl os b o i

/-- The edges' buffer after the body, at (b, o, i). -/
theorem out_edges_apply (xb : Vec Ideal S32x256 .f32) (sl os : Vec Ideal S256x256 .f32) (b : Fin 32) (o i : Fin 256) :
    out0_4 xb sl os (ix3 b o i) = sl (ix2 o i) * xb (ix2 b i) + os (ix2 o i) := by
  unfold out0_4
  rw [View.canon_unit_zero zero3]
  simp only [View.ld_unit_zero (S := S32x256) zero2, View.ld_unit_zero (S := S256x256) zero2]
  exact pay_edges_apply xb sl os b o i

/-- The sums' buffer after the body, at (b, o). -/
theorem out_sums_apply (xb : Vec Ideal S32x256 .f32) (sl os : Vec Ideal S256x256 .f32) (b : Fin 32) (o : Fin 256) :
    out0_3 xb sl os (ix2 b o) = ∑ i : Fin 256, (sl (ix2 o i) * xb (ix2 b i) + os (ix2 o i)) := by
  unfold out0_3
  rw [View.canon_unit_zero zero2]
  simp only [View.ld_unit_zero (S := S32x256) zero2, View.ld_unit_zero (S := S256x256) zero2]
  exact pay_sums_apply xb sl os b o

end Cert.KernelIdeal.Hand

end
-- ==== Proof.KernelBlocks.lean ====
/-
  From the kernel's blocks to its two result arrays.

  The grid has 64 points; point t works on input rows 32·t … 32·t + 31. Its input block is those rows of the input array,
  the two coefficient blocks are the whole folded matrices (the same at every point), and it writes back rows
  32·t … 32·t + 31 of both results. With real entries slope(o, i) · x(r, i) + offset(o, i) is the edge (r, o, i), so what
  point t writes back is block t of the array of edges, resp. of their sums over i. Row r lies in the block of point
  r / 32, so the 64 blocks cover both arrays and the arrays end holding `KanLayer.edges` and `KanLayer.sums`.
-/
import proofs.«156581_j90555090469173_2_alg».proof.Proof.KernelCoef
import proofs.«156581_j90555090469173_2_alg».proof.Proof.KernelBody

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The block indices of the five windows at every grid point: the input and both results move with the point along
    the batch axis, the folded matrices stay at block (0, 0). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- Row `b` of point `t`'s block is row 32·t + b of the batch. -/
def rowOf (t : Fin cfg0.N) (b : Fin 32) : Fin 2048 :=
  ⟨32 * t.val + b.val, by have ht := t.isLt; have hN : cfg0.N = 64 := N_0; have hb := b.isLt; omega⟩

/-- The input block at point `t` is rows 32·t … 32·t + 31 of the input array. -/
theorem in_block (c : Dev nD) (t : Fin cfg0.N) (b : Fin 32) (i : Fin 256) :
    (iblk m c 0 t : Vec Ideal S32x256 .f32) (ix2 b i) = argIn m c (ix2 (rowOf t b) i) := by
  obtain ⟨e0, e1, -⟩ := block_index t
  unfold iblk
  rw [View.read_apply]
  show V m c main_arg0 _ = _
  rw [V_main_arg0]
  refine congrArg (argIn m c) (funext fun a => Fin.ext ?_)
  match a with
  | ⟨0, _⟩ => show win0_0.index t (0 : Fin 2) * 32 + 1 * b.val = 32 * t.val + b.val; rw [e0]; omega
  | ⟨1, _⟩ => show win0_0.index t (1 : Fin 2) * 256 + 1 * i.val = i.val; rw [e1]; omega

/-- The slope block at every point is the whole slope matrix. -/
theorem slope_block (c : Dev nD) (t : Fin cfg0.N) (o i : Fin 256) :
    (iblk m c 1 t : Vec Ideal S256x256 .f32) (ix2 o i) = KanLayer.slopeAt (argCoef m c) (argMask m c) o i := by
  obtain ⟨-, -, e0, e1, -⟩ := block_index t
  unfold iblk
  rw [View.read_apply]
  refine Eq.trans ?_ (slope_found m c o i)
  show V m c main_v9 _ = V m c main_v9 _
  refine congrArg (V m c main_v9) (funext fun a => Fin.ext ?_)
  match a with
  | ⟨0, _⟩ => show win0_1.index t (0 : Fin 2) * 256 + 1 * o.val = o.val; rw [e0]; omega
  | ⟨1, _⟩ => show win0_1.index t (1 : Fin 2) * 256 + 1 * i.val = i.val; rw [e1]; omega

/-- The offset block at every point is the whole offset matrix. -/
theorem offset_block (c : Dev nD) (t : Fin cfg0.N) (o i : Fin 256) :
    (iblk m c 2 t : Vec Ideal S256x256 .f32) (ix2 o i) = KanLayer.offsetAt (argCoef m c) (argMask m c) o i := by
  obtain ⟨-, -, -, -, e0, e1, -⟩ := block_index t
  unfold iblk
  rw [View.read_apply]
  refine Eq.trans ?_ (offset_found m c o i)
  show V m c main_v12 _ = V m c main_v12 _
  refine congrArg (V m c main_v12) (funext fun a => Fin.ext ?_)
  match a with
  | ⟨0, _⟩ => show win0_2.index t (0 : Fin 2) * 256 + 1 * o.val = o.val; rw [e0]; omega
  | ⟨1, _⟩ => show win0_2.index t (1 : Fin 2) * 256 + 1 * i.val = i.val; rw [e1]; omega

/-- With real entries, slope · x + offset formed from blocks that hold the slope and offset matrices and rows
    32·t … 32·t + 31 of the input is, at (b, o, i), the edge (32·t + b, o, i). -/
theorem body_edge (hre : ∀ c, KanLayer.AllReal (argIn m c) (argCoef m c) (argMask m c)) (c : Dev nD) (t : Fin cfg0.N)
    (b : Fin 32) (o i : Fin 256) (sl os : Vec Ideal S256x256 .f32) (xb : Vec Ideal S32x256 .f32)
    (hsl : sl (ix2 o i) = KanLayer.slopeAt (argCoef m c) (argMask m c) o i)
    (hxb : xb (ix2 b i) = argIn m c (ix2 (rowOf t b) i))
    (hos : os (ix2 o i) = KanLayer.offsetAt (argCoef m c) (argMask m c) o i) :
    sl (ix2 o i) * xb (ix2 b i) + os (ix2 o i)
      = KanLayer.edgeAt (argIn m c) (argCoef m c) (argMask m c) (rowOf t b) o i := by
  rw [hsl, hxb, hos]
  exact KanLayer.folded_edge (hre c) (rowOf t b) o i

/-- Element (b, o, i) of point `t`'s block of the edges' array is element (32·t + b, o, i) of the array. -/
theorem edges_emb (t : Fin cfg0.N) (b : Fin 32) (o i : Fin 256) :
    ((cfg0.win 4).blk t).view.emb (ix3 b o i) = ix3 (rowOf t b) o i := by
  obtain ⟨-, -, -, -, -, -, -, -, e0, e1, e2⟩ := block_index t
  refine funext fun a => Fin.ext ?_
  match a with
  | ⟨0, _⟩ => show win0_4.index t (0 : Fin 3) * 32 + 1 * b.val = 32 * t.val + b.val; rw [e0]; omega
  | ⟨1, _⟩ => show win0_4.index t (1 : Fin 3) * 256 + 1 * o.val = o.val; rw [e1]; omega
  | ⟨2, _⟩ => show win0_4.index t (2 : Fin 3) * 256 + 1 * i.val = i.val; rw [e2]; omega

/-- Element (b, o) of point `t`'s block of the sums' array is element (32·t + b, o) of the array. -/
theorem sums_emb (t : Fin cfg0.N) (b : Fin 32) (o : Fin 256) :
    ((cfg0.win 3).blk t).view.emb (ix2 b o) = ix2 (rowOf t b) o := by
  obtain ⟨-, -, -, -, -, -, e0, e1, -⟩ := block_index t
  refine funext fun a => Fin.ext ?_
  match a with
  | ⟨0, _⟩ => show win0_3.index t (0 : Fin 2) * 32 + 1 * b.val = 32 * t.val + b.val; rw [e0]; omega
  | ⟨1, _⟩ => show win0_3.index t (1 : Fin 2) * 256 + 1 * o.val = o.val; rw [e1]; omega

/-- WHAT POINT `t` WRITES BACK to the edges' array is block `t` of `KanLayer.edges` of the arguments. -/
theorem flushed_edges (hre : ∀ c, KanLayer.AllReal (argIn m c) (argCoef m c) (argMask m c)) (c : Dev nD) (t : Fin cfg0.N) :
    (dats m 0 c).flushed 4 t
      = ((cfg0.win 4).blk t).view.read (Elt Ideal) (KanLayer.edges (argIn m c) (argCoef m c) (argMask m c)) := by
  rw [Value.flushed4]
  funext y
  obtain ⟨b, o, i, rfl⟩ : ∃ (b : Fin 32) (o i : Fin 256), y = ix3 b o i := ⟨y 0, y 1, y 2, eq_ix3 y⟩
  rw [View.read_apply, edges_emb t b o i, KanLayer.edges_ix3]
  show out0_4 (iblk m c 0 t) (iblk m c 1 t) (iblk m c 2 t) (ix3 b o i) = _
  exact (out_edges_apply (iblk m c 0 t) (iblk m c 1 t) (iblk m c 2 t) b o i).trans
    (body_edge m hre c t b o i (iblk m c 1 t) (iblk m c 2 t) (iblk m c 0 t) (slope_block m c t o i) (in_block m c t b i)
      (offset_block m c t o i))

/-- WHAT POINT `t` WRITES BACK to the sums' array is block `t` of `KanLayer.sums` of the arguments. -/
theorem flushed_sums (hre : ∀ c, KanLayer.AllReal (argIn m c) (argCoef m c) (argMask m c)) (c : Dev nD) (t : Fin cfg0.N) :
    (dats m 0 c).flushed 3 t
      = ((cfg0.win 3).blk t).view.read (Elt Ideal) (KanLayer.sums (argIn m c) (argCoef m c) (argMask m c)) := by
  rw [Value.flushed3]
  funext y
  obtain ⟨b, o, rfl⟩ : ∃ (b : Fin 32) (o : Fin 256), y = ix2 b o := ⟨y 0, y 1, eq_ix2 y⟩
  rw [View.read_apply, sums_emb t b o, KanLayer.sums_ix2]
  show out0_3 (iblk m c 0 t) (iblk m c 1 t) (iblk m c 2 t) (ix2 b o) = _
  refine (out_sums_apply (iblk m c 0 t) (iblk m c 1 t) (iblk m c 2 t) b o).trans ?_
  exact Finset.sum_congr rfl fun i _ =>
    body_edge m hre c t b o i (iblk m c 1 t) (iblk m c 2 t) (iblk m c 0 t) (slope_block m c t o i) (in_block m c t b i)
      (offset_block m c t o i)

/-- An index of the edges' array is in point `t`'s block iff each coordinate is in the block's range on its axis. -/
theorem mem_edges_block (t : Fin cfg0.N) (j : S2048x256x256.Idx) :
    j ∈ ((cfg0.win 4).blk t).view.set ↔ ∀ a : Fin 3, win0_4.index t a * S32x256x256.size a ≤ (j a).val
      ∧ (j a).val < win0_4.index t a * S32x256x256.size a + S32x256x256.size a := by
  show j ∈ ((View.whole main_v13_1).slice (win0_4.rect t)).set ↔ _
  rw [View.set_slice_whole, Rect.mem_set_unit]
  exact Iff.rfl

/-- The same for the sums' array. -/
theorem mem_sums_block (t : Fin cfg0.N) (j : S2048x256.Idx) :
    j ∈ ((cfg0.win 3).blk t).view.set ↔ ∀ a : Fin 2, win0_3.index t a * S32x256.size a ≤ (j a).val
      ∧ (j a).val < win0_3.index t a * S32x256.size a + S32x256.size a := by
  show j ∈ ((View.whole main_v13_0).slice (win0_3.rect t)).set ↔ _
  rw [View.set_slice_whole, Rect.mem_set_unit]
  exact Iff.rfl

/-- The point whose block holds batch row `r`: r / 32. -/
theorem point_of_row (r : Nat) (hr : r < 2048) : ∃ t : Fin cfg0.N, t.val = r / 32 :=
  ⟨⟨r / 32, by have hN : cfg0.N = 64 := N_0; omega⟩, rfl⟩

/-- Every index of the edges' array lies in the block of the point its batch row belongs to. -/
theorem edges_cover (j : S2048x256x256.Idx) :
    ∃ t : Fin cfg0.N, (cfg0.win 4).flush t = true ∧ j ∈ ((cfg0.win 4).blk t).view.set := by
  have h0 : (j 0).val < 2048 := (j 0).isLt
  have h1 : (j 1).val < 256 := (j 1).isLt
  have h2 : (j 2).val < 256 := (j 2).isLt
  obtain ⟨t, ht⟩ := point_of_row (j 0).val h0
  obtain ⟨-, -, -, -, -, -, -, -, e0, e1, e2⟩ := block_index t
  refine ⟨t, flush0_4 t, (mem_edges_block t j).mpr fun a => ?_⟩
  match a with
  | ⟨0, _⟩ =>
    show win0_4.index t (0 : Fin 3) * 32 ≤ (j 0).val ∧ (j 0).val < win0_4.index t (0 : Fin 3) * 32 + 32
    rw [e0, ht]; omega
  | ⟨1, _⟩ =>
    show win0_4.index t (1 : Fin 3) * 256 ≤ (j 1).val ∧ (j 1).val < win0_4.index t (1 : Fin 3) * 256 + 256
    rw [e1]; omega
  | ⟨2, _⟩ =>
    show win0_4.index t (2 : Fin 3) * 256 ≤ (j 2).val ∧ (j 2).val < win0_4.index t (2 : Fin 3) * 256 + 256
    rw [e2]; omega

/-- Every index of the sums' array lies in the block of the point its batch row belongs to. -/
theorem sums_cover (j : S2048x256.Idx) :
    ∃ t : Fin cfg0.N, (cfg0.win 3).flush t = true ∧ j ∈ ((cfg0.win 3).blk t).view.set := by
  have h0 : (j 0).val < 2048 := (j 0).isLt
  have h1 : (j 1).val < 256 := (j 1).isLt
  obtain ⟨t, ht⟩ := point_of_row (j 0).val h0
  obtain ⟨-, -, -, -, -, -, e0, e1, -⟩ := block_index t
  refine ⟨t, flush0_3 t, (mem_sums_block t j).mpr fun a => ?_⟩
  match a with
  | ⟨0, _⟩ =>
    show win0_3.index t (0 : Fin 2) * 32 ≤ (j 0).val ∧ (j 0).val < win0_3.index t (0 : Fin 2) * 32 + 32
    rw [e0, ht]; omega
  | ⟨1, _⟩ =>
    show win0_3.index t (1 : Fin 2) * 256 ≤ (j 1).val ∧ (j 1).val < win0_3.index t (1 : Fin 2) * 256 + 256
    rw [e1]; omega

/-- The edges' array after the run. -/
theorem final_edges (hre : ∀ c, KanLayer.AllReal (argIn m c) (argCoef m c) (argMask m c)) (c : Dev nD) :
    (dats m 0 c).arrAt 4 cfg0.N = KanLayer.edges (argIn m c) (argCoef m c) (argMask m c) :=
  (dats m 0 c).arrAt_eq_of_cover 4 (KanLayer.edges (argIn m c) (argCoef m c) (argMask m c))
    (fun t _ => flushed_edges m hre c t) edges_cover

/-- The sums' array after the run. -/
theorem final_sums (hre : ∀ c, KanLayer.AllReal (argIn m c) (argCoef m c) (argMask m c)) (c : Dev nD) :
    (dats m 0 c).arrAt 3 cfg0.N = KanLayer.sums (argIn m c) (argCoef m c) (argMask m c) :=
  (dats m 0 c).arrAt_eq_of_cover 3 (KanLayer.sums (argIn m c) (argCoef m c) (argMask m c))
    (fun t _ => flushed_sums m hre c t) sums_cover

/-- The kernel's run with both result arrays named: with real entries in the arguments, the first result ends at
    the sums of the edges, the second at the edges, and the arguments are unchanged. -/
theorem run (hre : ∀ c, KanLayer.AllReal (argIn m c) (argCoef m c) (argMask m c)) :
    θ_run defs (onTc (τ := τ) (main (F := Ideal))) ⟨m, fun _ => 0, ρ⟩ fun r => ∀ c : Dev nD,
      r.2.mem ((c : Thread nD τ).loc main_v13_0) = KanLayer.sums (argIn m c) (argCoef m c) (argMask m c)
      ∧ r.2.mem ((c : Thread nD τ).loc main_v13_1) = KanLayer.edges (argIn m c) (argCoef m c) (argMask m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_sums m hre c), (h c).2.1.trans (final_edges m hre c), (h c).2.2⟩)
    (Value.run_blocks m ρ)

end Cert.KernelIdeal.Hand

end
-- ==== Proof.lean ====
/-
  A layer whose every edge (b, o, i) applies four coefficients and a mask to one input entry,
      mask(o,i) · (a2(o,i) · (a0(o,i) · x(b,i) + a1(o,i)) + a3(o,i)),
  returning the sums of the edges over i and the edges themselves.

  The reference forms each edge in that order. The kernel folds the coefficients once, outside its grid, into a slope
  (mask · a2) · a0 and an offset mask · (a2 · a1 + a3), and each of its 64 grid points forms slope · x + offset for 32
  batch rows, writes those edges back and, beside them, their sums along the last axis. The two edges agree by
  distributivity of the product over the sum, a law the extended reals have at real entries only: this is where the
  precondition (every input entry finite) is used. The sums agree term by term. The 64 blocks of 32 rows tile both
  result arrays, so the arrays end holding the reference's values.

  The kernel rewrites nothing when it is read over the extended reals, so the statement that its idealized reading
  preserves it is the trivial one.
-/
import proofs.«156581_j90555090469173_2_alg».proof.Defs
import proofs.«156581_j90555090469173_2_alg».proof.Proof.Gen.Kernel
import proofs.«156581_j90555090469173_2_alg».proof.Proof.Gen.Kernel.Skeleton
import proofs.«156581_j90555090469173_2_alg».proof.Proof.Gen.Kernel.Launch
import proofs.«156581_j90555090469173_2_alg».proof.Proof.Gen.Kernel.Points
import proofs.«156581_j90555090469173_2_alg».proof.Proof.Gen.Kernel.Frame
import proofs.«156581_j90555090469173_2_alg».proof.Proof.Gen.KernelIdeal
import proofs.«156581_j90555090469173_2_alg».proof.Proof.Gen.KernelIdeal.Skeleton
import proofs.«156581_j90555090469173_2_alg».proof.Proof.Gen.KernelIdeal.Launch
import proofs.«156581_j90555090469173_2_alg».proof.Proof.Gen.KernelIdeal.Points
import proofs.«156581_j90555090469173_2_alg».proof.Proof.Gen.KernelIdeal.Frame
import proofs.«156581_j90555090469173_2_alg».proof.Proof.Gen.ReferenceIdeal
import proofs.«156581_j90555090469173_2_alg».proof.Proof.Gen.Pre_finite_inputs
import proofs.«156581_j90555090469173_2_alg».proof.Proof.Gen.KernelIdeal.Value
import proofs.«156581_j90555090469173_2_alg».proof.Proof.Gen.ReferenceIdeal.Run
import proofs.«156581_j90555090469173_2_alg».proof.Proof.Gen.ReferenceIdeal.Read
import proofs.«156581_j90555090469173_2_alg».proof.Proof.Spec
import proofs.«156581_j90555090469173_2_alg».proof.Proof.Finite
import proofs.«156581_j90555090469173_2_alg».proof.Proof.RefSpec
import proofs.«156581_j90555090469173_2_alg».proof.Proof.KernelBlocks
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the results dropped. -/
theorem frame_reference : Cert.frame_ReferenceIdeal := fun m ρ _ =>
  (θ_run Cert.ReferenceIdeal.defs _ _).mono (fun _ h c => (h c).2.2)
    (Cert.ReferenceIdeal.Value.run (F := Ideal) m ρ)

/-- Both programs, run from memories agreeing on finite arguments, end with the sums of the edges in the first result and
    the edges in the second: the kernel by its blocks and the folding law, the reference operation by operation. -/
theorem algebraic : Cert.algebraic_KernelIdeal_ReferenceIdeal := by
  intro m ρ m' ρ' hpre hagree
  have hre : ∀ c, KanLayer.AllReal (Cert.KernelIdeal.Hand.argIn m c) (Cert.KernelIdeal.Hand.argCoef m c)
      (Cert.KernelIdeal.Hand.argMask m c) := fun c => Cert.Proof.Finite.allReal _ _ _ (hpre c)
  refine ⟨fun c => KanLayer.sums (Cert.KernelIdeal.Hand.argIn m c) (Cert.KernelIdeal.Hand.argCoef m c)
      (Cert.KernelIdeal.Hand.argMask m c),
    fun c => KanLayer.edges (Cert.KernelIdeal.Hand.argIn m c) (Cert.KernelIdeal.Hand.argCoef m c)
      (Cert.KernelIdeal.Hand.argMask m c),
    Cert.KernelIdeal.Hand.run m ρ hre, ?_⟩
  refine (θ_run Cert.ReferenceIdeal.defs _ _).mono (fun _ h c => ?_)
    (Cert.ReferenceIdeal.Value.run (F := Ideal) m' ρ')
  obtain ⟨hsums, hedges, hargs⟩ := h c
  obtain ⟨ag0, ag1, ag2⟩ := hagree c
  refine ⟨hsums.trans ?_, hedges.trans ?_, hargs⟩
  · rw [Cert.ReferenceIdeal.Read.val_main_v25_eq, Cert.ReferenceIdeal.RefValue.sums_eq, ag0, ag1, ag2]
  · rw [Cert.ReferenceIdeal.Read.val_main_v24_eq, Cert.ReferenceIdeal.RefValue.edges_eq, ag0, ag1, ag2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
